-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : IVec S4096x4096 1) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S256x4096 : Shape := ⟨2, ![256, 4096]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .bf16⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.K.Runs.lean ====
/-
  What the two kernel regions of the program share, stated at a parameter `V`: the contents of the core's buffers when a
  region is entered.

  Region 0 computes the effective weight sixteen row blocks at a time: at each grid point it reads a 256 x 4096 block of
  the weight and of the mask (already converted to numbers) and writes the block of the effective weight.

  Region 1 is a matrix product over a grid of 8 x 4 x 4 points (row block, column block, contraction block), the
  contraction index moving fastest. A 1024 x 1024 accumulator lives in a scratch buffer that survives from one grid
  point to the next: it is cleared when the contraction index is 0, a partial product is added at every point, and the
  accumulator is copied into the output block when the contraction index is 3. Here are: each window's block at a point,
  the fact that an input window's staging buffer holds that block whether or not it was fetched at the point, the two
  branch conditions of the body decided over the grid in closed form (point number mod 4), and where the output window is
  idle (points whose contraction index is not 3: nothing is stored and nothing is written back).
-/
import proofs.«161708_j76613626626441_1_alg».proof.Proof.Gen.Kernel.Launch
import proofs.«161708_j76613626626441_1_alg».proof.Proof.Gen.Kernel.Skeleton
import proofs.«161708_j76613626626441_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle's membership at these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the effective weight, block by block -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask window's staging buffer holds the mask's block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body of region 0 loads and stores through: the whole 256 x 4096 block. -/
abbrev r0_0 : Rect S256x4096 := Rect.unit (s := S256x4096) ![0, 0] S256x4096.size inb_S256x4096_S256x4096_0_0

/-- What the body of region 0 leaves in the output window's staging buffer, from the two input blocks: its one store. -/
def out0_2 (x0 : Vec F S256x4096 .f32) (x1 : Vec F S256x4096 .f32) : Vec F S256x4096 .bf16 :=
  View.canon [⟨r0_0, k0_pay1 (View.ld x0 r0_0) (View.ld x1 r0_0)⟩]

/-- That store covers the buffer. -/
theorem cover0_2 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-! ## Region 1: the matrix product with its accumulator -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the input's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The effective-weight window's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ### The body's two branch conditions -/

/-- "The contraction index is 0": the condition under which the accumulator is cleared, as the body computes it. -/
abbrev cond1_0 (i : grid1.Coords) : Prop := (Scalar.cmpi .ne (Scalar.extui (Scalar.cmpi .eq (BitVec.ofNat 32 (i 2).val) 0#32)) 0#32) = 1#1
/-- It holds exactly at the points whose number is 0 mod 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- "The contraction index is 3": the condition under which the accumulator is copied into the output block. -/
abbrev cond1_1 (i : grid1.Coords) : Prop := k1_cond2 i = 1#1
/-- It holds exactly at the points whose number is 3 mod 4. -/
theorem hcond1_1 : ∀ t : Fin cfg1.N, cond1_1 (grid1.coords t) ↔ t.val % 4 = 3 :=
  (by decide +kernel : ∀ t : Fin grid1.N, cond1_1 (grid1.coords t) ↔ t.val % 4 = 3)

/-! ### Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the accumulator is cleared and not copied out, the output window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same where it is neither cleared nor copied out. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where it is copied out the output window is live. -/
theorem liveAt1_2_C : ∀ t : Fin cfg1.N, ¬cond1_0 (grid1.coords t) → cond1_1 (grid1.coords t) → cfg1.idle 2 (grid1.coords t) = false := by decide +kernel

/-! ### The memrefs the body is called with -/

/-- One staging buffer of the output window, through which its contents are stated (the choice does not matter). -/
abbrev VO1_2 : View sig .tc .vmem S1024x1024 .f32 := (Memref.whole cc1_stg2_0 : Memref sig .tc .vmem S1024x1024 .f32).view
/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S1024x1024 .f32 := Memref.whole cc1_scratch0
/-- The same as a view: what it holds is stated through it. -/
abbrev VS1_0 : View sig .tc .vmem S1024x1024 .f32 := scM1_0.view

/-- The scoped buffers of the core that region 1 never touches (the staging buffers of region 0), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the launch hands region 1 besides its windows: the untouched scoped buffers, the accumulator at some contents,
    and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Frm

end
-- ==== Proof.K.R0.lean ====
/-
  Region 0 as a pipeline: at every grid point the body reads the weight's block and the mask's block whole, computes the
  hyperbolic tangent of their entrywise product, and stores it whole into the output window's buffer. Here: the body's
  run on any staging buffers, the description of what every window's buffer holds after the body at each point, and the
  obligation the pipeline asks of the body at every point.
-/
import proofs.«161708_j76613626626441_1_alg».proof.Proof.K.Runs

-- a rectangle's membership at these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging memrefs, the two inputs' at contents `x0`, `x1` and the output's at anything, runs to the
    continuation with the inputs' as they were and the output's holding the one block it stores. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .bf16) (harg3 : arg3.IsWhole)
    (x0 : Vec F S256x4096 .f32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__eff_kernel i arg1 harg1 arg2 harg2 arg3 harg3) K := by
  simp only [cc0__eff_kernel_eq_skeleton]; unfold cc0__eff_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`: the arrays as the region finds them; after the body at point `t` each input's
    buffer at its block and the output's at the block computed from them; the invariant is the untouched scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.RunA.lean ====
/-
  The body of region 1 run once, whole, at a grid point where the contraction index is 0: the accumulator is cleared, the first partial product is added, nothing is copied out. The run is a pair: the list of
  pieces the body's stores leave in the output window's buffer and in the accumulator (found while the body is stepped
  through), and the proof that, started on whole buffers holding the two input blocks (and, where the accumulator is
  read before it is overwritten, the accumulator's contents from the point before), the body reaches its end with the
  inputs untouched and those pieces written.
-/
import proofs.«161708_j76613626626441_1_alg».proof.Proof.K.Runs

-- a rectangle's membership at these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (accumulator cleared, not copied out): the output buffer, idle here, is handed back untouched at its contents
    `xi2`; the accumulator may start at anything, since it is stored whole before it is read. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.K.RunB.lean ====
/-
  The body of region 1 run once, whole, at a grid point where the contraction index is 1 or 2: a partial product is added to the accumulator, nothing is cleared or copied out. The run is a pair: the list of
  pieces the body's stores leave in the output window's buffer and in the accumulator (found while the body is stepped
  through), and the proof that, started on whole buffers holding the two input blocks (and, where the accumulator is
  read before it is overwritten, the accumulator's contents from the point before), the body reaches its end with the
  inputs untouched and those pieces written.
-/
import proofs.«161708_j76613626626441_1_alg».proof.Proof.K.Runs

-- a rectangle's membership at these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (neither cleared nor copied out): the output buffer, idle here, is handed back untouched at its contents
    `xi2`; the accumulator starts at what the point before left, `xs0`. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.K.RunC.lean ====
/-
  The body of region 1 run once, whole, at a grid point where the contraction index is 3: the last partial product is added and the accumulator is copied into the output block. The run is a pair: the list of
  pieces the body's stores leave in the output window's buffer and in the accumulator (found while the body is stepped
  through), and the proof that, started on whole buffers holding the two input blocks (and, where the accumulator is
  read before it is overwritten, the accumulator's contents from the point before), the body reaches its end with the
  inputs untouched and those pieces written.
-/
import proofs.«161708_j76613626626441_1_alg».proof.Proof.K.Runs

-- a rectangle's membership at these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (not cleared, copied out): the output buffer may start at anything and ends with the body's store written;
    the accumulator starts at what the point before left, `xs0`. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Frm

end
-- ==== Proof.K.R1.lean ====
/-
  Region 1 as a pipeline. What the accumulator and the output window's buffer hold after each grid point is defined by
  recursion on the point number: at a point whose contraction index is 0 the accumulator is what the body leaves when it
  starts from anything; at the other points it is what the body leaves when it starts from the accumulator of the point
  before; the output buffer receives the body's store at the points whose contraction index is 3 and is left alone
  elsewhere. The region's invariant carries the accumulator at exactly these contents from one point to the next. With
  that, the obligation the pipeline asks of the body holds at every point, by cases on the point number mod 4.
-/
import proofs.«161708_j76613626626441_1_alg».proof.Proof.K.RunA
import proofs.«161708_j76613626626441_1_alg».proof.Proof.K.RunB
import proofs.«161708_j76613626626441_1_alg».proof.Proof.K.RunC

-- a rectangle's membership at these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output buffer: a placeholder that nothing consults. -/
def out1_A_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VO1_2.read (Elt F) (VO1_2.writes (Elt F) VO1_2.junk (kernelRun1_A c i arg3 harg3 arg4 harg4 arg5 harg5 arg6 harg6 hc0 hc1 x0 x1).1)

/-- Case A's stores into the accumulator cover it. -/
theorem scover1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y

/-- What case A leaves in the accumulator. -/
def sout1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VS1_0.read (Elt F) (VS1_0.writes (Elt F) VS1_0.junk (kernelRun1_A c i arg3 harg3 arg4 harg4 arg5 harg5 arg6 harg6 hc0 hc1 x0 x1).2.1)

/-- Case B stores nothing into the output buffer: a placeholder that nothing consults. -/
def out1_B_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_B c i arg3 harg3 arg4 harg4 arg5 harg5 arg6 harg6 hc0 hc1 x0 x1 xs0).1)

/-- Case B's store into the accumulator covers it. -/
theorem scover1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y

/-- What case B leaves in the accumulator. -/
def sout1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 hc0 hc1 x0 x1 xs0).2.1)

/-- Case C's store into the output buffer covers it. -/
theorem cover1_C_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y

/-- What case C leaves in the output buffer. -/
def out1_C_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_C c i arg3 harg3 arg4 harg4 arg5 harg5 arg6 harg6 hc0 hc1 x0 x1 xs0).1)

/-- Case C's store into the accumulator covers it. -/
theorem scover1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y

/-- What case C leaves in the accumulator. -/
def sout1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 hc0 hc1 x0 x1 xs0).2.1)

/-! ## The accumulation, point by point -/

/-- What the output window's buffer (first component) and the accumulator (second component) hold after the body at
    position `n`: the case the point number selects, run on the point's blocks, the accumulator taken from position
    `n - 1` wherever it is not cleared. -/
def outsAt1 (c : Dev nD) : (n : ℕ) → n < cfg1.N → Vec F S1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point whose number is 0 mod 4: case A's contents. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point whose number is 1 or 2 mod 4: case B's contents, over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point whose number is 3 mod 4: case C's contents, over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point, what the launch hands the region (every scoped
    buffer at anything); afterwards the untouched scoped buffers, the accumulator at what the point before left, and the
    generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The proof data of region 1 on core `c`: the arrays as the region finds them; after the body at point `t` each input's
    buffer at its block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The obligation the pipeline asks of the body -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point number mod 4 says which case the point is in;
    the invariant hands the body the accumulator at what the point before left (at anything before the first point) and
    takes it back at this point's contents; where the output window is idle its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨O0, O1, O2, O3, O4, O5, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [O0 O1 O2 O3 O4 O5 HS0 Hg]
        · isplitl [O0 O1 O2 O3 O4 O5 HS0]
          · isplitl [O0]; · iexact O0
            isplitl [O1]; · iexact O1
            isplitl [O2]; · iexact O2
            isplitl [O3]; · iexact O3
            isplitl [O4]; · iexact O4
            isplitl [O5]; · iexact O5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨O0, O1, O2, O3, O4, O5, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [O0 O1 O2 O3 O4 O5 HS0 Hg]
        · isplitl [O0 O1 O2 O3 O4 O5 HS0]
          · isplitl [O0]; · iexact O0
            isplitl [O1]; · iexact O1
            isplitl [O2]; · iexact O2
            isplitl [O3]; · iexact O3
            isplitl [O4]; · iexact O4
            isplitl [O5]; · iexact O5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS_castSucc V c t, PhiS_pos V c _ _ hz]
        iintro ⟨⟨⟨O0, O1, O2, O3, O4, O5, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [O0 O1 O2 O3 O4 O5 HS0 Hg]
        · isplitl [O0 O1 O2 O3 O4 O5 HS0]
          · isplitl [O0]; · iexact O0
            isplitl [O1]; · iexact O1
            isplitl [O2]; · iexact O2
            isplitl [O3]; · iexact O3
            isplitl [O4]; · iexact O4
            isplitl [O5]; · iexact O5
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨O0, O1, O2, O3, O4, O5, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [O0 O1 O2 O3 O4 O5 HS0 Hg]
        · isplitl [O0 O1 O2 O3 O4 O5 HS0]
          · isplitl [O0]; · iexact O0
            isplitl [O1]; · iexact O1
            isplitl [O2]; · iexact O2
            isplitl [O3]; · iexact O3
            isplitl [O4]; · iexact O4
            isplitl [O5]; · iexact O5
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives back what the launch handed the region: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨O0, O1, O2, O3, O4, O5, HS0⟩, Hg⟩
  isplitl [O0 O1 O2 O3 O4 O5 HS0]
  · isplitl [O0]; · iexact O0
    isplitl [O1]; · iexact O1
    isplitl [O2]; · iexact O2
    isplitl [O3]; · iexact O3
    isplitl [O4]; · iexact O4
    isplitl [O5]; · iexact O5
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Frm

end
-- ==== Proof.K.Run.lean ====
/-
  The whole program as a sequence of three stretches, and what every buffer of a core holds between them.

  The program first converts the one-bit mask into numbers (one host operation, writing a fresh buffer), then runs
  region 0 (the effective weight, block by block, from the weight and the converted mask), then region 1 (the matrix
  product of the input with the effective weight, accumulated over four contraction blocks). Nothing follows region 1.

  Between two stretches the contents of a core's buffers are a function of the launch contents: after the host
  operation the converted mask sits in its buffer and everything else is as launched; after a region its output array
  holds what the region's write-backs leave, point after point, and every other buffer is as the region found it. Reading
  this chain backwards at an argument's buffer gives the launch contents, since no stretch writes an argument: an
  argument is at most an input window of a region, and an input window's array is never written.

  From these and each region's proof data the file builds the three stretches as segments whose pre- and
  post-states chain, and concludes: every weakly fair execution of the program terminates, the result buffer holds what
  region 1's write-backs leave (stated through region 1's proof data entered from region 0's result), and the three
  arguments end as launched.
-/
import proofs.«161708_j76613626626441_1_alg».proof.Proof.K.R0
import proofs.«161708_j76613626626441_1_alg».proof.Proof.K.R1

-- a rectangle's membership at these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the stretches -/

/-- Core `c`'s buffers at launch. -/
abbrev W0 : Dev nD → Valuation τ sig (Elt F) := fun c b => (s₀ m ρ).mem ((c : Dev nD), b)
/-- After the host operation (the mask converted to numbers): what region 0 is entered from. -/
abbrev W1 : Dev nD → Valuation τ sig (Elt F) := fun c => StableHlo.after hostOps0 (W0 m ρ c)
/-- The same, read at the core's own references: the contents region 0's proof data take. -/
abbrev V1 : (c : Dev nD) → (b : Ref sig .tc) → Buf (Elt F) ((c : Thread nD τ).loc b) := fun c b => W1 m ρ c b
/-- When region 0 is left: its arrays at what the pipeline leaves (the inputs as entered, the output with every
    write-back folded in), every other buffer as entered. -/
def W2 (c : Dev nD) : Valuation τ sig (Elt F) :=
  Pipeline.withArrays spec0 c (W1 m ρ c) fun w => (dat0 (V1 m ρ) c).arrAt w cfg0.N
/-- At an array of region 0, that is what the pipeline leaves there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At any other buffer, it is what region 0 was entered with. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references: the contents region 1's proof data take (no host operation stands
    between the two regions). -/
abbrev V2 : (c : Dev nD) → (b : Ref sig .tc) → Buf (Elt F) ((c : Thread nD τ).loc b) := fun c b => W2 m ρ c b
/-- When region 0 is left each of its arrays holds what the pipeline leaves, -/
theorem hF0 (c : Dev nD) (w : Fin cfg0.W) : (dat0 (V1 m ρ) c).arrAt w cfg0.N = V2 m ρ c (Pipeline.arrRef spec0 w) :=
  (W2_arr m ρ c w).symm
/-- and every other buffer what it held when the region was entered. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- When region 1 is left: its arrays at what the pipeline leaves, every other buffer as entered. Nothing follows,
    so these are the final contents. -/
def W3 (c : Dev nD) : Valuation τ sig (Elt F) :=
  Pipeline.withArrays spec1 c (W2 m ρ c) fun w => (dat1 (V2 m ρ) c).arrAt w cfg1.N
/-- At an array of region 1, that is what the pipeline leaves there. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- At any other buffer, it is what region 1 was entered with. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's own references. -/
abbrev V3 : (c : Dev nD) → (b : Ref sig .tc) → Buf (Elt F) ((c : Thread nD τ).loc b) := fun c b => W3 m ρ c b
/-- When region 1 is left each of its arrays holds what the pipeline leaves, -/
theorem hF1 (c : Dev nD) (w : Fin cfg1.W) : (dat1 (V2 m ρ) c).arrAt w cfg1.N = V3 m ρ c (Pipeline.arrRef spec1 w) :=
  (W3_arr m ρ c w).symm
/-- and every other buffer what it held when the region was entered. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the host operation leaves: the converted mask, and every argument untouched -/

/-- The host operation does not write the input. -/
theorem W1_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operation does not write the weight. -/
theorem W1_main_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operation reads the mask and does not write it. -/
theorem W1_main_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Region 0 is entered with the weight as launched. -/
theorem V1_main_arg1 (c : Dev nD) : V1 m ρ c main_arg1 = m ((c : Thread nD τ).loc main_arg1) :=
  (W1_main_arg1 m ρ c).trans rfl

/-- Region 0 is entered with the mask's buffer of numbers holding the launched mask, each bit read as a number. -/
theorem V1_main_v0 (c : Dev nD) :
    V1 m ρ c main_v0 = (uitofp .f32 : (⟨S4096x4096, .i1⟩ : BufTy).Contents (Elt F) → (⟨S4096x4096, .f32⟩ : BufTy).Contents (Elt F)) (m ((c : Thread nD τ).loc main_arg2)) := by
  show StableHlo.after hostOps0 (W0 m ρ c) (Proc.devRef .tc main_v0) = _
  after_results

/-- Region 1 is entered with the input as launched: region 0 has no window on it and the host operation does not
    write it. -/
theorem V2_main_arg0 (c : Dev nD) : V2 m ρ c main_arg0 = m ((c : Thread nD τ).loc main_arg0) :=
  (W2_of_ne m ρ c main_arg0 (by decide)).trans ((W1_main_arg0 m ρ c).trans rfl)

/-- Region 1 is entered with the effective weight's buffer holding what region 0's write-backs leave. -/
theorem V2_main_v1 (c : Dev nD) : V2 m ρ c main_v1 = (dat0 (V1 m ρ) c).arrAt 2 cfg0.N :=
  W2_arr m ρ c 2

/-! ## The arguments end as launched -/

/-- The input is region 1's first input window: an input window's array is never written. -/
theorem W3_main_arg0 (c : Dev nD) : W3 m ρ c (Proc.devRef .tc main_arg0) = m ((c : Thread nD τ).loc main_arg0) :=
  (W3_arr m ρ c 0).trans (((dat1 (V2 m ρ) c).arrAt_in 0 rfl _).trans ((A_eq1 (V2 m ρ) c 0).trans (V2_main_arg0 m ρ c)))

/-- The weight is no window of region 1 and is region 0's first input window. -/
theorem W3_main_arg1 (c : Dev nD) : W3 m ρ c (Proc.devRef .tc main_arg1) = m ((c : Thread nD τ).loc main_arg1) :=
  (W3_of_ne m ρ c main_arg1 (by decide)).trans
    ((W2_arr m ρ c 0).trans (((dat0 (V1 m ρ) c).arrAt_in 0 rfl _).trans ((A_eq0 (V1 m ρ) c 0).trans (V1_main_arg1 m ρ c))))

/-- The mask is no window of either region, and the host operation only reads it. -/
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans ((W1_main_arg2 m ρ c).trans rfl))

/-! ## The proof data of the two regions and the state a core carries between stretches -/

/-- The prefetched tables' admissible contents: neither region has a table. -/
abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along; it
    ends with those buffers at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host operation allocates no buffer. -/
theorem hostOps0_fresh : (hostOps0 : List (HloOp τ sig (Elt F))).Forall fun op => op.fresh = ∅ := by
  simp only [List.Forall]; repeat' constructor
/-- An unscoped reference of the core is among those the carried state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last carried state, without the debt part: every unscoped buffer at the final contents, the generator register
    at some state. -/
abbrev Tₙ (c : Dev nD) : sProp 𝕄 := iprop(StableHlo.held (c : Thread nD τ) (Pipeline.ucRefs τ sig) (W3 m ρ c) ∗ ∃ r, prngReg c r)

/-! ## The regions as segments -/

-- a library lemma stated over a pinned configuration unifies with the printed one only when unification may unfold
-- plain definitions in the type of an unknown
set_option backward.isDefEq.respectTransparency.types false in
/-- Region 0 over the carried state: entered with every unscoped buffer at the contents after the host operation, left
    with them at `W2`. Its arrays are split out of the unscoped buffers on entry and put back at their final contents on
    exit; the generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in the type of an unknown
set_option backward.isDefEq.respectTransparency.types false in
/-- Region 1 over the carried state: entered with every unscoped buffer at `W2` (exactly where region 0 leaves them),
    left with them at the final contents `W3`. Its invariant starts as the untouched scoped buffers, the accumulator at
    some contents and the generator register, and at the last point gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

/-- The program's three segments in order: the host operation from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of these segments. -/
theorem main_run (c : Dev nD) : main (F := F) c = Pipeline.Seg.run (segs m ρ) := (main_chain c).trans (by chain_rfl)

-- the launch theorem's implicit arguments are found by unifying its conclusion with this one, which takes unfolding plain
-- definitions in the type of an unknown
set_option backward.isDefEq.respectTransparency.types false in
/-- From any memory with zero counters, every weakly fair execution of the program terminates, nothing faulting, and in
    every final state the result buffer holds what region 1's write-backs leave (region 1 entered from region 0's
    result) and each of the three arguments holds its launch contents. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- From any memory with zero counters, every weakly fair execution of the program terminates, nothing faulting, and the
    three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Frm

end
-- ==== Proof.KI.Runs.lean ====
/-
  What the two kernel regions of the program share, stated at a parameter `V`: the contents of the core's buffers when a
  region is entered.

  Region 0 computes the effective weight sixteen row blocks at a time: at each grid point it reads a 256 x 4096 block of
  the weight and of the mask (already converted to numbers) and writes the block of the effective weight.

  Region 1 is a matrix product over a grid of 8 x 4 x 4 points (row block, column block, contraction block), the
  contraction index moving fastest. A 1024 x 1024 accumulator lives in a scratch buffer that survives from one grid
  point to the next: it is cleared when the contraction index is 0, a partial product is added at every point, and the
  accumulator is copied into the output block when the contraction index is 3. Here are: each window's block at a point,
  the fact that an input window's staging buffer holds that block whether or not it was fetched at the point, the two
  branch conditions of the body decided over the grid in closed form (point number mod 4), and where the output window is
  idle (points whose contraction index is not 3: nothing is stored and nothing is written back).
-/
import proofs.«161708_j76613626626441_1_alg».proof.Proof.Gen.KernelIdeal.Launch
import proofs.«161708_j76613626626441_1_alg».proof.Proof.Gen.KernelIdeal.Skeleton
import proofs.«161708_j76613626626441_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle's membership at these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the effective weight, block by block -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask window's staging buffer holds the mask's block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body of region 0 loads and stores through: the whole 256 x 4096 block. -/
abbrev r0_0 : Rect S256x4096 := Rect.unit (s := S256x4096) ![0, 0] S256x4096.size inb_S256x4096_S256x4096_0_0

/-- What the body of region 0 leaves in the output window's staging buffer, from the two input blocks: its one store. -/
def out0_2 (x0 : Vec F S256x4096 .f32) (x1 : Vec F S256x4096 .f32) : Vec F S256x4096 .bf16 :=
  View.canon [⟨r0_0, k0_pay1 (View.ld x0 r0_0) (View.ld x1 r0_0)⟩]

/-- That store covers the buffer. -/
theorem cover0_2 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-! ## Region 1: the matrix product with its accumulator -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the input's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The effective-weight window's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ### The body's two branch conditions -/

/-- "The contraction index is 0": the condition under which the accumulator is cleared, as the body computes it. -/
abbrev cond1_0 (i : grid1.Coords) : Prop := (Scalar.cmpi .ne (Scalar.extui (Scalar.cmpi .eq (BitVec.ofNat 32 (i 2).val) 0#32)) 0#32) = 1#1
/-- It holds exactly at the points whose number is 0 mod 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- "The contraction index is 3": the condition under which the accumulator is copied into the output block. -/
abbrev cond1_1 (i : grid1.Coords) : Prop := k1_cond2 i = 1#1
/-- It holds exactly at the points whose number is 3 mod 4. -/
theorem hcond1_1 : ∀ t : Fin cfg1.N, cond1_1 (grid1.coords t) ↔ t.val % 4 = 3 :=
  (by decide +kernel : ∀ t : Fin grid1.N, cond1_1 (grid1.coords t) ↔ t.val % 4 = 3)

/-! ### Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the accumulator is cleared and not copied out, the output window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same where it is neither cleared nor copied out. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where it is copied out the output window is live. -/
theorem liveAt1_2_C : ∀ t : Fin cfg1.N, ¬cond1_0 (grid1.coords t) → cond1_1 (grid1.coords t) → cfg1.idle 2 (grid1.coords t) = false := by decide +kernel

/-! ### The memrefs the body is called with -/

/-- One staging buffer of the output window, through which its contents are stated (the choice does not matter). -/
abbrev VO1_2 : View sig .tc .vmem S1024x1024 .f32 := (Memref.whole cc1_stg2_0 : Memref sig .tc .vmem S1024x1024 .f32).view
/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S1024x1024 .f32 := Memref.whole cc1_scratch0
/-- The same as a view: what it holds is stated through it. -/
abbrev VS1_0 : View sig .tc .vmem S1024x1024 .f32 := scM1_0.view

/-- The scoped buffers of the core that region 1 never touches (the staging buffers of region 0), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the launch hands region 1 besides its windows: the untouched scoped buffers, the accumulator at some contents,
    and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Frm

end
-- ==== Proof.KI.R0.lean ====
/-
  Region 0 as a pipeline: at every grid point the body reads the weight's block and the mask's block whole, computes the
  hyperbolic tangent of their entrywise product, and stores it whole into the output window's buffer. Here: the body's
  run on any staging buffers, the description of what every window's buffer holds after the body at each point, and the
  obligation the pipeline asks of the body at every point.
-/
import proofs.«161708_j76613626626441_1_alg».proof.Proof.KI.Runs

-- a rectangle's membership at these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging memrefs, the two inputs' at contents `x0`, `x1` and the output's at anything, runs to the
    continuation with the inputs' as they were and the output's holding the one block it stores. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .bf16) (harg3 : arg3.IsWhole)
    (x0 : Vec F S256x4096 .f32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__eff_kernel i arg1 harg1 arg2 harg2 arg3 harg3) K := by
  simp only [cc0__eff_kernel_eq_skeleton]; unfold cc0__eff_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`: the arrays as the region finds them; after the body at point `t` each input's
    buffer at its block and the output's at the block computed from them; the invariant is the untouched scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.RunA.lean ====
/-
  The body of region 1 run once, whole, at a grid point where the contraction index is 0: the accumulator is cleared, the first partial product is added, nothing is copied out. The run is a pair: the list of
  pieces the body's stores leave in the output window's buffer and in the accumulator (found while the body is stepped
  through), and the proof that, started on whole buffers holding the two input blocks (and, where the accumulator is
  read before it is overwritten, the accumulator's contents from the point before), the body reaches its end with the
  inputs untouched and those pieces written.
-/
import proofs.«161708_j76613626626441_1_alg».proof.Proof.KI.Runs

-- a rectangle's membership at these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (accumulator cleared, not copied out): the output buffer, idle here, is handed back untouched at its contents
    `xi2`; the accumulator may start at anything, since it is stored whole before it is read. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.KI.RunB.lean ====
/-
  The body of region 1 run once, whole, at a grid point where the contraction index is 1 or 2: a partial product is added to the accumulator, nothing is cleared or copied out. The run is a pair: the list of
  pieces the body's stores leave in the output window's buffer and in the accumulator (found while the body is stepped
  through), and the proof that, started on whole buffers holding the two input blocks (and, where the accumulator is
  read before it is overwritten, the accumulator's contents from the point before), the body reaches its end with the
  inputs untouched and those pieces written.
-/
import proofs.«161708_j76613626626441_1_alg».proof.Proof.KI.Runs

-- a rectangle's membership at these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (neither cleared nor copied out): the output buffer, idle here, is handed back untouched at its contents
    `xi2`; the accumulator starts at what the point before left, `xs0`. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.KI.RunC.lean ====
/-
  The body of region 1 run once, whole, at a grid point where the contraction index is 3: the last partial product is added and the accumulator is copied into the output block. The run is a pair: the list of
  pieces the body's stores leave in the output window's buffer and in the accumulator (found while the body is stepped
  through), and the proof that, started on whole buffers holding the two input blocks (and, where the accumulator is
  read before it is overwritten, the accumulator's contents from the point before), the body reaches its end with the
  inputs untouched and those pieces written.
-/
import proofs.«161708_j76613626626441_1_alg».proof.Proof.KI.Runs

-- a rectangle's membership at these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (not cleared, copied out): the output buffer may start at anything and ends with the body's store written;
    the accumulator starts at what the point before left, `xs0`. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Frm

end
-- ==== Proof.KI.R1.lean ====
/-
  Region 1 as a pipeline. What the accumulator and the output window's buffer hold after each grid point is defined by
  recursion on the point number: at a point whose contraction index is 0 the accumulator is what the body leaves when it
  starts from anything; at the other points it is what the body leaves when it starts from the accumulator of the point
  before; the output buffer receives the body's store at the points whose contraction index is 3 and is left alone
  elsewhere. The region's invariant carries the accumulator at exactly these contents from one point to the next. With
  that, the obligation the pipeline asks of the body holds at every point, by cases on the point number mod 4.
-/
import proofs.«161708_j76613626626441_1_alg».proof.Proof.KI.RunA
import proofs.«161708_j76613626626441_1_alg».proof.Proof.KI.RunB
import proofs.«161708_j76613626626441_1_alg».proof.Proof.KI.RunC

-- a rectangle's membership at these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output buffer: a placeholder that nothing consults. -/
def out1_A_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VO1_2.read (Elt F) (VO1_2.writes (Elt F) VO1_2.junk (kernelRun1_A c i arg3 harg3 arg4 harg4 arg5 harg5 arg6 harg6 hc0 hc1 x0 x1).1)

/-- Case A's stores into the accumulator cover it. -/
theorem scover1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y

/-- What case A leaves in the accumulator. -/
def sout1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VS1_0.read (Elt F) (VS1_0.writes (Elt F) VS1_0.junk (kernelRun1_A c i arg3 harg3 arg4 harg4 arg5 harg5 arg6 harg6 hc0 hc1 x0 x1).2.1)

/-- Case B stores nothing into the output buffer: a placeholder that nothing consults. -/
def out1_B_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_B c i arg3 harg3 arg4 harg4 arg5 harg5 arg6 harg6 hc0 hc1 x0 x1 xs0).1)

/-- Case B's store into the accumulator covers it. -/
theorem scover1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y

/-- What case B leaves in the accumulator. -/
def sout1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 hc0 hc1 x0 x1 xs0).2.1)

/-- Case C's store into the output buffer covers it. -/
theorem cover1_C_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y

/-- What case C leaves in the output buffer. -/
def out1_C_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_C c i arg3 harg3 arg4 harg4 arg5 harg5 arg6 harg6 hc0 hc1 x0 x1 xs0).1)

/-- Case C's store into the accumulator covers it. -/
theorem scover1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y

/-- What case C leaves in the accumulator. -/
def sout1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 hc0 hc1 x0 x1 xs0).2.1)

/-! ## The accumulation, point by point -/

/-- What the output window's buffer (first component) and the accumulator (second component) hold after the body at
    position `n`: the case the point number selects, run on the point's blocks, the accumulator taken from position
    `n - 1` wherever it is not cleared. -/
def outsAt1 (c : Dev nD) : (n : ℕ) → n < cfg1.N → Vec F S1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point whose number is 0 mod 4: case A's contents. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point whose number is 1 or 2 mod 4: case B's contents, over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point whose number is 3 mod 4: case C's contents, over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point, what the launch hands the region (every scoped
    buffer at anything); afterwards the untouched scoped buffers, the accumulator at what the point before left, and the
    generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The proof data of region 1 on core `c`: the arrays as the region finds them; after the body at point `t` each input's
    buffer at its block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The obligation the pipeline asks of the body -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point number mod 4 says which case the point is in;
    the invariant hands the body the accumulator at what the point before left (at anything before the first point) and
    takes it back at this point's contents; where the output window is idle its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨O0, O1, O2, O3, O4, O5, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [O0 O1 O2 O3 O4 O5 HS0 Hg]
        · isplitl [O0 O1 O2 O3 O4 O5 HS0]
          · isplitl [O0]; · iexact O0
            isplitl [O1]; · iexact O1
            isplitl [O2]; · iexact O2
            isplitl [O3]; · iexact O3
            isplitl [O4]; · iexact O4
            isplitl [O5]; · iexact O5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨O0, O1, O2, O3, O4, O5, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [O0 O1 O2 O3 O4 O5 HS0 Hg]
        · isplitl [O0 O1 O2 O3 O4 O5 HS0]
          · isplitl [O0]; · iexact O0
            isplitl [O1]; · iexact O1
            isplitl [O2]; · iexact O2
            isplitl [O3]; · iexact O3
            isplitl [O4]; · iexact O4
            isplitl [O5]; · iexact O5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS_castSucc V c t, PhiS_pos V c _ _ hz]
        iintro ⟨⟨⟨O0, O1, O2, O3, O4, O5, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [O0 O1 O2 O3 O4 O5 HS0 Hg]
        · isplitl [O0 O1 O2 O3 O4 O5 HS0]
          · isplitl [O0]; · iexact O0
            isplitl [O1]; · iexact O1
            isplitl [O2]; · iexact O2
            isplitl [O3]; · iexact O3
            isplitl [O4]; · iexact O4
            isplitl [O5]; · iexact O5
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨O0, O1, O2, O3, O4, O5, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [O0 O1 O2 O3 O4 O5 HS0 Hg]
        · isplitl [O0 O1 O2 O3 O4 O5 HS0]
          · isplitl [O0]; · iexact O0
            isplitl [O1]; · iexact O1
            isplitl [O2]; · iexact O2
            isplitl [O3]; · iexact O3
            isplitl [O4]; · iexact O4
            isplitl [O5]; · iexact O5
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives back what the launch handed the region: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨O0, O1, O2, O3, O4, O5, HS0⟩, Hg⟩
  isplitl [O0 O1 O2 O3 O4 O5 HS0]
  · isplitl [O0]; · iexact O0
    isplitl [O1]; · iexact O1
    isplitl [O2]; · iexact O2
    isplitl [O3]; · iexact O3
    isplitl [O4]; · iexact O4
    isplitl [O5]; · iexact O5
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Frm

end
-- ==== Proof.KI.Run.lean ====
/-
  The whole program as a sequence of three stretches, and what every buffer of a core holds between them.

  The program first converts the one-bit mask into numbers (one host operation, writing a fresh buffer), then runs
  region 0 (the effective weight, block by block, from the weight and the converted mask), then region 1 (the matrix
  product of the input with the effective weight, accumulated over four contraction blocks). Nothing follows region 1.

  Between two stretches the contents of a core's buffers are a function of the launch contents: after the host
  operation the converted mask sits in its buffer and everything else is as launched; after a region its output array
  holds what the region's write-backs leave, point after point, and every other buffer is as the region found it. Reading
  this chain backwards at an argument's buffer gives the launch contents, since no stretch writes an argument: an
  argument is at most an input window of a region, and an input window's array is never written.

  From these and each region's proof data the file builds the three stretches as segments whose pre- and
  post-states chain, and concludes: every weakly fair execution of the program terminates, the result buffer holds what
  region 1's write-backs leave (stated through region 1's proof data entered from region 0's result), and the three
  arguments end as launched.
-/
import proofs.«161708_j76613626626441_1_alg».proof.Proof.KI.R0
import proofs.«161708_j76613626626441_1_alg».proof.Proof.KI.R1

-- a rectangle's membership at these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the stretches -/

/-- Core `c`'s buffers at launch. -/
abbrev W0 : Dev nD → Valuation τ sig (Elt F) := fun c b => (s₀ m ρ).mem ((c : Dev nD), b)
/-- After the host operation (the mask converted to numbers): what region 0 is entered from. -/
abbrev W1 : Dev nD → Valuation τ sig (Elt F) := fun c => StableHlo.after hostOps0 (W0 m ρ c)
/-- The same, read at the core's own references: the contents region 0's proof data take. -/
abbrev V1 : (c : Dev nD) → (b : Ref sig .tc) → Buf (Elt F) ((c : Thread nD τ).loc b) := fun c b => W1 m ρ c b
/-- When region 0 is left: its arrays at what the pipeline leaves (the inputs as entered, the output with every
    write-back folded in), every other buffer as entered. -/
def W2 (c : Dev nD) : Valuation τ sig (Elt F) :=
  Pipeline.withArrays spec0 c (W1 m ρ c) fun w => (dat0 (V1 m ρ) c).arrAt w cfg0.N
/-- At an array of region 0, that is what the pipeline leaves there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At any other buffer, it is what region 0 was entered with. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references: the contents region 1's proof data take (no host operation stands
    between the two regions). -/
abbrev V2 : (c : Dev nD) → (b : Ref sig .tc) → Buf (Elt F) ((c : Thread nD τ).loc b) := fun c b => W2 m ρ c b
/-- When region 0 is left each of its arrays holds what the pipeline leaves, -/
theorem hF0 (c : Dev nD) (w : Fin cfg0.W) : (dat0 (V1 m ρ) c).arrAt w cfg0.N = V2 m ρ c (Pipeline.arrRef spec0 w) :=
  (W2_arr m ρ c w).symm
/-- and every other buffer what it held when the region was entered. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- When region 1 is left: its arrays at what the pipeline leaves, every other buffer as entered. Nothing follows,
    so these are the final contents. -/
def W3 (c : Dev nD) : Valuation τ sig (Elt F) :=
  Pipeline.withArrays spec1 c (W2 m ρ c) fun w => (dat1 (V2 m ρ) c).arrAt w cfg1.N
/-- At an array of region 1, that is what the pipeline leaves there. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- At any other buffer, it is what region 1 was entered with. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's own references. -/
abbrev V3 : (c : Dev nD) → (b : Ref sig .tc) → Buf (Elt F) ((c : Thread nD τ).loc b) := fun c b => W3 m ρ c b
/-- When region 1 is left each of its arrays holds what the pipeline leaves, -/
theorem hF1 (c : Dev nD) (w : Fin cfg1.W) : (dat1 (V2 m ρ) c).arrAt w cfg1.N = V3 m ρ c (Pipeline.arrRef spec1 w) :=
  (W3_arr m ρ c w).symm
/-- and every other buffer what it held when the region was entered. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the host operation leaves: the converted mask, and every argument untouched -/

/-- The host operation does not write the input. -/
theorem W1_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operation does not write the weight. -/
theorem W1_main_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operation reads the mask and does not write it. -/
theorem W1_main_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Region 0 is entered with the weight as launched. -/
theorem V1_main_arg1 (c : Dev nD) : V1 m ρ c main_arg1 = m ((c : Thread nD τ).loc main_arg1) :=
  (W1_main_arg1 m ρ c).trans rfl

/-- Region 0 is entered with the mask's buffer of numbers holding the launched mask, each bit read as a number. -/
theorem V1_main_v0 (c : Dev nD) :
    V1 m ρ c main_v0 = (uitofp .f32 : (⟨S4096x4096, .i1⟩ : BufTy).Contents (Elt F) → (⟨S4096x4096, .f32⟩ : BufTy).Contents (Elt F)) (m ((c : Thread nD τ).loc main_arg2)) := by
  show StableHlo.after hostOps0 (W0 m ρ c) (Proc.devRef .tc main_v0) = _
  after_results

/-- Region 1 is entered with the input as launched: region 0 has no window on it and the host operation does not
    write it. -/
theorem V2_main_arg0 (c : Dev nD) : V2 m ρ c main_arg0 = m ((c : Thread nD τ).loc main_arg0) :=
  (W2_of_ne m ρ c main_arg0 (by decide)).trans ((W1_main_arg0 m ρ c).trans rfl)

/-- Region 1 is entered with the effective weight's buffer holding what region 0's write-backs leave. -/
theorem V2_main_v1 (c : Dev nD) : V2 m ρ c main_v1 = (dat0 (V1 m ρ) c).arrAt 2 cfg0.N :=
  W2_arr m ρ c 2

/-! ## The arguments end as launched -/

/-- The input is region 1's first input window: an input window's array is never written. -/
theorem W3_main_arg0 (c : Dev nD) : W3 m ρ c (Proc.devRef .tc main_arg0) = m ((c : Thread nD τ).loc main_arg0) :=
  (W3_arr m ρ c 0).trans (((dat1 (V2 m ρ) c).arrAt_in 0 rfl _).trans ((A_eq1 (V2 m ρ) c 0).trans (V2_main_arg0 m ρ c)))

/-- The weight is no window of region 1 and is region 0's first input window. -/
theorem W3_main_arg1 (c : Dev nD) : W3 m ρ c (Proc.devRef .tc main_arg1) = m ((c : Thread nD τ).loc main_arg1) :=
  (W3_of_ne m ρ c main_arg1 (by decide)).trans
    ((W2_arr m ρ c 0).trans (((dat0 (V1 m ρ) c).arrAt_in 0 rfl _).trans ((A_eq0 (V1 m ρ) c 0).trans (V1_main_arg1 m ρ c))))

/-- The mask is no window of either region, and the host operation only reads it. -/
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans ((W1_main_arg2 m ρ c).trans rfl))

/-! ## The proof data of the two regions and the state a core carries between stretches -/

/-- The prefetched tables' admissible contents: neither region has a table. -/
abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along; it
    ends with those buffers at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host operation allocates no buffer. -/
theorem hostOps0_fresh : (hostOps0 : List (HloOp τ sig (Elt F))).Forall fun op => op.fresh = ∅ := by
  simp only [List.Forall]; repeat' constructor
/-- An unscoped reference of the core is among those the carried state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last carried state, without the debt part: every unscoped buffer at the final contents, the generator register
    at some state. -/
abbrev Tₙ (c : Dev nD) : sProp 𝕄 := iprop(StableHlo.held (c : Thread nD τ) (Pipeline.ucRefs τ sig) (W3 m ρ c) ∗ ∃ r, prngReg c r)

/-! ## The regions as segments -/

-- a library lemma stated over a pinned configuration unifies with the printed one only when unification may unfold
-- plain definitions in the type of an unknown
set_option backward.isDefEq.respectTransparency.types false in
/-- Region 0 over the carried state: entered with every unscoped buffer at the contents after the host operation, left
    with them at `W2`. Its arrays are split out of the unscoped buffers on entry and put back at their final contents on
    exit; the generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in the type of an unknown
set_option backward.isDefEq.respectTransparency.types false in
/-- Region 1 over the carried state: entered with every unscoped buffer at `W2` (exactly where region 0 leaves them),
    left with them at the final contents `W3`. Its invariant starts as the untouched scoped buffers, the accumulator at
    some contents and the generator register, and at the last point gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

/-- The program's three segments in order: the host operation from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of these segments. -/
theorem main_run (c : Dev nD) : main (F := F) c = Pipeline.Seg.run (segs m ρ) := (main_chain c).trans (by chain_rfl)

-- the launch theorem's implicit arguments are found by unifying its conclusion with this one, which takes unfolding plain
-- definitions in the type of an unknown
set_option backward.isDefEq.respectTransparency.types false in
/-- From any memory with zero counters, every weakly fair execution of the program terminates, nothing faulting, and in
    every final state the result buffer holds what region 1's write-backs leave (region 1 entered from region 0's
    result) and each of the three arguments holds its launch contents. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- From any memory with zero counters, every weakly fair execution of the program terminates, nothing faulting, and the
    three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Frm

end
-- ==== Proof.Payloads.lean ====
/-
  The arithmetic of the kernel bodies, one element at a time, over the extended reals.

  The first kernel writes, at every position of a 256 x 4096 block, the hyperbolic tangent of the product of the two
  blocks it read there: eff = tanh (W * mask), entrywise. A change of float format is the identity on extended
  reals, so the narrowing to the 16-bit format leaves the value as it is.

  The second kernel keeps a 1024 x 1024 accumulator. Its first payload is the zero matrix. Its second payload is the
  accumulator plus a matrix product: the left factor is a 1024 x 1024 block x, the right factor is the TRANSPOSE of a
  1024 x 1024 block e, and the product starts from zero. So at row p and column q the payload is
      acc (p, q) + sum over k < 1024 of x (p, k) * e (q, k).
  The contraction runs over the second axis of the left factor and the first axis of the transposed right factor;
  reading the transposed block at (k, q) reads the block itself at (q, k). The contraction's index set has one axis of
  extent 1024, so the sum over it is re-indexed as a sum over the naturals below 1024.
-/
import proofs.«161708_j76613626626441_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The first kernel's payload at a position: the hyperbolic tangent of the product of the two blocks there. The
    shape cast to the same shape and the narrowing of the float format both leave the value unchanged. -/
theorem pay_eff (v0 v1 : Vec Ideal S256x4096 .f32) (j : S256x4096.Idx) :
    Gen.k0_pay1 (F := Ideal) v0 v1 j = Ideal.tanh (v0 j * v1 j) := by
  unfold Gen.k0_pay1
  simp only [shapeCast_self]
  rfl

/-- The second kernel's first payload is zero at every position: a broadcast of the zero word. -/
theorem pay_zero (j : S1024x1024.Idx) : Gen.k1_pay1 (F := Ideal) j = 0 := by
  unfold Gen.k1_pay1
  simp only [shapeCast_self]
  exact Ideal.ofBits_zero_f32

/-- The left factor's index at output position `i` and contraction index `c`: its row is the output's row … -/
theorem lhs_0 (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … and its column is the contraction index. -/
theorem lhs_1 (i : S1024x1024.Idx) (c : dot_S1024x1024_S1024x1024_S1024x1024_1_0_0_1_n_n.contr.Idx) :
    (dot_S1024x1024_S1024x1024_S1024x1024_1_0_0_1_n_n.lhsIdx i c 1).val = (c ⟨0, by decide⟩).val :=
  dot_S1024x1024_S1024x1024_S1024x1024_1_0_0_1_n_n.lhsIdx_val_of_single rfl i c
/-- The right factor's index: its row is the contraction index … -/
theorem rhs_0 (i : S1024x1024.Idx) (c : dot_S1024x1024_S1024x1024_S1024x1024_1_0_0_1_n_n.contr.Idx) :
    (dot_S1024x1024_S1024x1024_S1024x1024_1_0_0_1_n_n.rhsIdx i c 0).val = (c ⟨0, by decide⟩).val :=
  dot_S1024x1024_S1024x1024_S1024x1024_1_0_0_1_n_n.rhsIdx_val_of_single rfl i c
/-- … and its column is the output's column. -/
theorem rhs_1 (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The second kernel's second payload at row `p` and column `q`: the accumulator there plus the sum over `k` of the
    left block at `(p, k)` times the right block at `(q, k)` — the right block enters the product transposed. -/
theorem pay_acc (v3 : Vec Ideal S1024x1024 .f32) (v5 : Vec Ideal S1024x1024 .bf16) (v8 : Vec Ideal S1024x1024 .f32)
    (p q : Fin 1024) :
    Gen.k1_pay2 (F := Ideal) v3 v5 v8 (ix2 p q)
      = v8 (ix2 p q) + ∑ k : Fin 1024, v3 (ix2 p k) * v5 (ix2 q k) := by
  unfold Gen.k1_pay2
  simp only [shapeCast_self]
  refine (addf_apply _ _ _).trans ?_
  refine congrArg (v8 (ix2 p q) + ·) ?_
  simp only [matmul]
  refine (Ideal.matmul_constant_zero_apply dot_S1024x1024_S1024x1024_S1024x1024_1_0_0_1_n_n none _ _ _).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]
  refine congrArg (v3 (ix2 p k) * ·) ?_
  exact transpose_ix2_apply v5 _ k q

end Cert.KernelIdeal.Pay

end
-- ==== Proof.Val0.lean ====
/-
  What the first kernel region leaves in the effective-weight array.

  The region walks over the 4096 x 4096 weight in sixteen row blocks of 256 rows. At grid point t it reads rows
  256 * t, …, 256 * t + 255 of the weight and of the mask, and writes back the same rows of the effective weight: at
  every position the hyperbolic tangent of the product of the weight and the mask there. The three windows move
  together (block index (t, 0) for each), every point writes its block back, and the sixteen blocks tile the array:
  row r lies in the block of point r / 256. So after the region the effective-weight array is, at every index,
  the hyperbolic tangent of the product of the weight and the mask at that index, as the region found them.
-/
import proofs.«161708_j76613626626441_1_alg».proof.Proof.KI.R0
import proofs.«161708_j76613626626441_1_alg».proof.Proof.Payloads
import Idealize.ShloMosaic.Lib.Pipeline.Value

set_option maxRecDepth 16384

noncomputable section

namespace Cert.KernelIdeal.Val

open Cert.KernelIdeal Cert.KernelIdeal.Gen Cert.KernelIdeal.Frm Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- The weight as the region finds it, as a function of the index with extended-real values. -/
abbrev wgt : S4096x4096.Idx → EReal := V c main_arg1
/-- The mask, already converted to numbers, as the region finds it. -/
abbrev msk : S4096x4096.Idx → EReal := V c main_v0

/-- The body's one rectangle starts at the origin. -/
theorem origin0 : (![0, 0] : Fin 2 → Nat) = fun _ => 0 := funext fun a => by fin_cases a <;> rfl

/-- The effective weight as one function of the weight and the mask, index by index. -/
abbrev effOf (a0 : S4096x4096.Idx → Elt Ideal .f32) (a1 : S4096x4096.Idx → Elt Ideal .f32) : S4096x4096.Idx → Elt Ideal .bf16 :=
  fun i => Ideal.tanh (a0 i * a1 i)

/-- The three windows' block indices at point `t`, decided over the grid: all three are `(t, 0)`. -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point `t` writes back is block `t` of the effective weight computed from the arrays as the region finds them. -/
theorem eff_flushed (t : Fin cfg0.N) :
    (dat0 V c).flushed 2 t = ((cfg0.win 2).blk t).view.read (Elt Ideal) (effOf (wgt V c) (msk V c)) := by
  show (cfg0.win 2).cut (grid0.coords t) ((dat0 V c).after 2 t) = _
  rw [after0_2]
  unfold out0_2
  rw [View.canon_unit_zero origin0]
  simp only [View.ld_unit_zero (S := S256x4096) origin0]
  obtain ⟨e0, e1, e2, e3, e4, e5⟩ := idx_facts0 t
  funext j
  refine (Pay.pay_eff (iblk0 V c 0 t) (iblk0 V c 1 t) j).trans ?_
  show Ideal.tanh (wgt V c (((cfg0.win 0).blk t).view.emb j) * msk V c (((cfg0.win 1).blk t).view.emb j))
    = Ideal.tanh (wgt V c (((cfg0.win 2).blk t).view.emb j) * msk V c (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-- An index of the array is in point `t`'s block iff each coordinate is in the block's range on its axis. -/
theorem mem_blk0_2 (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v1).slice (win0_2.rect t)).set ↔ _
  rw [View.set_slice_whole, Rect.mem_set_unit]
  exact Iff.rfl

/-- Every index of the array lies in the block some point writes back: row `r` in the block of point `r / 256`. -/
theorem eff_cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : grid0.N = 16 := N_0
  obtain ⟨t, ht⟩ : ∃ t : Fin cfg0.N, t.val = (i 0).val / 256 := ⟨⟨(i 0).val / 256, by show _ < grid0.N; omega⟩, rfl⟩
  obtain ⟨e0, e1, e2, e3, e4, e5⟩ := idx_facts0 t
  refine ⟨t, flush0_2 t, ?_⟩
  rw [mem_blk0_2]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After the region the effective-weight array holds, at every index, the hyperbolic tangent of the product of the
    weight and the mask there, as the region found them. -/
theorem eff_final : (dat0 V c).arrAt 2 cfg0.N
    = fun i : S4096x4096.Idx => Ideal.tanh (wgt V c i * msk V c i) :=
  (dat0 V c).arrAt_eq_of_cover 2 (effOf (wgt V c) (msk V c)) (fun t _ => eff_flushed V c t) eff_cover

end Cert.KernelIdeal.Val

end
-- ==== Proof.KI.Pieces.lean ====
/-
  What the body of region 1 leaves behind, named. In every case the accumulator ends at "what it held before, plus the
  product of the input block with the transposed effective-weight block" (the second payload of the body), where "what it
  held before" is the zero matrix (the first payload) at the points that clear it and the contents left by the point
  before elsewhere; and at the points that copy the accumulator out, the output window's buffer ends holding exactly the
  accumulator's new contents. Each statement is read off the pieces the body's run found: every load and store of the
  body goes through the whole 1024 x 1024 rectangle at offset zero, so a load reads the contents and a store leaves its
  payload.
-/
import proofs.«161708_j76613626626441_1_alg».proof.Proof.KI.R1
import Idealize.ShloMosaic.Lib.Pipeline.Value

-- a rectangle's membership at these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every rectangle in the body: zero on both axes. -/
theorem hz1 : (![0, 0] : Fin 2 → Nat) = fun _ => 0 := funext fun a => by fin_cases a <;> rfl

/-- Where the accumulator is neither cleared nor copied out, it ends at the second payload over its old contents. -/
theorem sout1_B_0_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) :
    sout1_B_0 c i arg3 harg3 arg4 harg4 arg5 harg5 arg6 harg6 hc0 hc1 x0 x1 xs0 = k1_pay2 x0 x1 xs0 := by
  unfold sout1_B_0
  rw [View.read_writes_eq_canon _ _ _ (scover1_B_0 c i arg3 harg3 arg4 harg4 arg5 harg5 arg6 harg6 hc0 hc1 x0 x1 xs0)]
  unfold kernelRun1_B
  dsimp only
  sl_unfold_words
  rw [View.canon_unit_zero hz1]
  simp only [View.readAt_eq_ld, harg3.read_unread, harg4.read_unread, harg6.read_unread, View.ld_unit_zero (S := S1024x1024) hz1]

/-- Where the accumulator is cleared, it ends at the second payload over the zero matrix. -/
theorem sout1_A_0_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) :
    sout1_A_0 c i arg3 harg3 arg4 harg4 arg5 harg5 arg6 harg6 hc0 hc1 x0 x1 = k1_pay2 x0 x1 (k1_pay1 (F := F)) := by
  unfold sout1_A_0
  rw [View.read_writes_eq_canon _ _ _ (scover1_A_0 c i arg3 harg3 arg4 harg4 arg5 harg5 arg6 harg6 hc0 hc1 x0 x1)]
  unfold kernelRun1_A
  dsimp only
  sl_unfold_words
  rw [View.canon_cons_unit_zero hz1]
  simp only [View.readAt_eq_ld, harg3.read_unread, harg4.read_unread, View.ld_unit_zero (S := S1024x1024) hz1, View.readCov_unit_zero (S := S1024x1024) arg6.view hz1]

/-- Where the accumulator is copied out, it ends at the second payload over its old contents, -/
theorem sout1_C_0_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) :
    sout1_C_0 c i arg3 harg3 arg4 harg4 arg5 harg5 arg6 harg6 hc0 hc1 x0 x1 xs0 = k1_pay2 x0 x1 xs0 := by
  unfold sout1_C_0
  rw [View.read_writes_eq_canon _ _ _ (scover1_C_0 c i arg3 harg3 arg4 harg4 arg5 harg5 arg6 harg6 hc0 hc1 x0 x1 xs0)]
  unfold kernelRun1_C
  dsimp only
  sl_unfold_words
  rw [View.canon_unit_zero hz1]
  simp only [View.readAt_eq_ld, harg3.read_unread, harg4.read_unread, harg6.read_unread, View.ld_unit_zero (S := S1024x1024) hz1]

/-- and the output window's buffer ends holding the same. -/
theorem out1_C_2_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) :
    out1_C_2 c i arg3 harg3 arg4 harg4 arg5 harg5 arg6 harg6 hc0 hc1 x0 x1 xs0 = k1_pay2 x0 x1 xs0 := by
  unfold out1_C_2
  rw [View.read_writes_eq_canon _ _ _ (cover1_C_2 c i arg3 harg3 arg4 harg4 arg5 harg5 arg6 harg6 hc0 hc1 x0 x1 xs0)]
  unfold kernelRun1_C
  dsimp only
  sl_unfold_words
  rw [View.canon_unit_zero hz1]
  simp only [View.readAt_eq_ld, harg3.read_unread, harg4.read_unread, harg6.read_unread, View.ld_unit_zero (S := S1024x1024) hz1, View.readCov_unit_zero (S := S1024x1024) arg6.view hz1]

end Cert.KernelIdeal.Frm

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.ChunkLaw.lean ====
/-
  A sum over 4096 columns read as four blocks of 1024 columns.

  For a function `f` on the 4096 column indices with values in a commutative additive monoid, `chunk f c` is the
  sum of `f` over the 1024 columns `1024 * c, …, 1024 * c + 1023` of block `c` (and zero for `c ≥ 4`, where there
  is no such block), and `upto f n` is the running total of the first `n` blocks. The running total starts at
  zero, each step adds the next block, and after four steps it is the sum of `f` over all 4096 columns. Only the
  commutative monoid laws of addition are used, so the statements hold on the extended reals, infinities included.
-/
import Mathlib.Algebra.BigOperators.Fin
import proofs.«161708_j76613626626441_1_alg».proof.Proof.LibChunkSum

namespace Cert.BlockDiag

variable {M : Type*} [AddCommMonoid M]

/-- The sum of `f` over block `c`: the 1024 columns `1024 * c + j`, `j < 1024`. Zero when `c` is not one of the
    four blocks. -/
def chunk (f : Fin 4096 → M) (c : ℕ) : M :=
  if h : c < 4 then ∑ j : Fin 1024, f ⟨1024 * c + j.val, by omega⟩ else 0

/-- The running total of the first `n` blocks. -/
def upto (f : Fin 4096 → M) (n : ℕ) : M := ∑ c ∈ Finset.range n, chunk f c

/-- Before any block is added the running total is zero. -/
theorem upto_zero (f : Fin 4096 → M) : upto f 0 = 0 := Finset.sum_range_zero _

/-- One step of the running total adds the next block. -/
theorem upto_succ (f : Fin 4096 → M) (n : ℕ) : upto f (n + 1) = upto f n + chunk f n :=
  Finset.sum_range_succ _ _

/-- For one of the four blocks, `chunk` is the sum over the block's 1024 columns. -/
theorem chunk_eq (f : Fin 4096 → M) (c : ℕ) (hc : c < 4) :
    chunk f c = ∑ j : Fin 1024, f ⟨1024 * c + j.val, by omega⟩ := dif_pos hc

/-- After four blocks the running total is the sum over all 4096 columns. -/
theorem upto_four (f : Fin 4096 → M) : upto f 4 = ∑ k : Fin 4096, f k := by
  show upto f 4 = ∑ k : Fin (4 * 1024), f k
  rw [Cert.LibChunkSum.sum_chunks 4 1024 f (fun c j => ⟨1024 * c.val + j.val, by omega⟩) (fun _ _ => rfl),
    Fin.sum_univ_four, upto_succ, upto_succ, upto_succ, upto_succ, upto_zero, zero_add,
    chunk_eq f 0 (by omega), chunk_eq f 1 (by omega), chunk_eq f 2 (by omega), chunk_eq f 3 (by omega)]
  rfl

end Cert.BlockDiag
-- ==== Proof.AccMath.lean ====
/-
  A blocked accumulation, step by step, and what the accumulator holds.

  A matrix product out (r, c) = sum over k < 4096 of x (r, k) * e (c, k), with 8192 rows r and 4096 columns c, is
  computed in 1024 x 1024 blocks over 128 steps n = 0, …, 127. Step n works on row block n / 16, column block
  n / 4 % 4 and contraction block n % 4: it reads the 1024 x 1024 block X n of x (rows of the row block, contraction
  indices of the contraction block) and the block E n of e (rows of the column block, the same contraction indices),
  and updates a 1024 x 1024 accumulator A. When the contraction block is the first one (n % 4 = 0) the accumulator is
  set to zero and the block product is added; otherwise the block product is added to what the step before left.

  Steps n - 1 and n with n % 4 ≠ 0 have the same row block and the same column block, so by induction on n the
  accumulator after step n holds, at (p, q), the running total of the first n % 4 + 1 contraction blocks of the sum
  for row 1024 * (n / 16) + p and column 1024 * (n / 4 % 4) + q. After the fourth contraction block (n % 4 = 3) that is
  the sum over all 4096 contraction indices. Only the commutative monoid laws of addition on the extended reals are
  used; nothing is assumed finite.
-/
import Mathlib.Data.EReal.Operations
import Mathlib.Algebra.BigOperators.Fin
import proofs.«161708_j76613626626441_1_alg».proof.Proof.ChunkLaw

open scoped BigOperators

namespace Cert.BlockDiag

/-- Row `p` of the row block of step `n` is one of the 8192 rows. -/
theorem row_lt (n : ℕ) (hn : n < 128) (p : Fin 1024) : 1024 * (n / 16) + p.val < 8192 := by
  have := p.isLt; omega

/-- Column `q` of the column block of step `n` is one of the 4096 columns. -/
theorem col_lt (n : ℕ) (q : Fin 1024) : 1024 * (n / 4 % 4) + q.val < 4096 := by
  have := q.isLt; omega

/-- Position `k` of the contraction block of step `n` is one of the 4096 contraction indices. -/
theorem blk_lt (n : ℕ) (k : Fin 1024) : 1024 * (n % 4) + k.val < 4096 := by
  have := k.isLt; omega

/-- The summand of the full product at row `r` and column `c`, as a function of the contraction index. -/
noncomputable def term (x : Fin 8192 → Fin 4096 → EReal) (e : Fin 4096 → Fin 4096 → EReal) (r : Fin 8192) (c : Fin 4096) :
    Fin 4096 → EReal := fun k => x r k * e c k

section
variable (x : Fin 8192 → Fin 4096 → EReal) (e : Fin 4096 → Fin 4096 → EReal)
  (A X E : ℕ → Fin 1024 → Fin 1024 → EReal)
  (hX : ∀ n (hn : n < 128) (p k : Fin 1024), X n p k = x ⟨1024 * (n / 16) + p.val, row_lt n hn p⟩ ⟨1024 * (n % 4) + k.val, blk_lt n k⟩)
  (hE : ∀ n (hn : n < 128) (q k : Fin 1024), E n q k = e ⟨1024 * (n / 4 % 4) + q.val, col_lt n q⟩ ⟨1024 * (n % 4) + k.val, blk_lt n k⟩)
  (h0 : ∀ n, n < 128 → n % 4 = 0 → ∀ p q, A n p q = 0 + ∑ k : Fin 1024, X n p k * E n q k)
  (hs : ∀ n, n < 128 → n % 4 ≠ 0 → ∀ p q, A n p q = A (n - 1) p q + ∑ k : Fin 1024, X n p k * E n q k)

include hX hE in
/-- The block product of step `n` at `(p, q)` is the contraction block `n % 4` of the full sum for that row and column. -/
theorem block_eq_chunk (n : ℕ) (hn : n < 128) (p q : Fin 1024) :
    ∑ k : Fin 1024, X n p k * E n q k
      = chunk (term x e ⟨1024 * (n / 16) + p.val, row_lt n hn p⟩ ⟨1024 * (n / 4 % 4) + q.val, col_lt n q⟩) (n % 4) := by
  rw [chunk_eq _ (n % 4) (Nat.mod_lt n (by omega))]
  refine Finset.sum_congr rfl fun k _ => ?_
  exact congrArg₂ (fun a b : EReal => a * b) (hX n hn p k) (hE n hn q k)

include hX hE h0 in
/-- At a step that starts a new row and column block (`n % 4 = 0`) the accumulator is reset and the first contraction
    block added: it holds the running total of one block. -/
theorem acc_reset (n : ℕ) (hn : n < 128) (h4 : n % 4 = 0) (p q : Fin 1024) :
    A n p q = upto (term x e ⟨1024 * (n / 16) + p.val, row_lt n hn p⟩ ⟨1024 * (n / 4 % 4) + q.val, col_lt n q⟩) (n % 4 + 1) := by
  rw [upto_succ, h0 n hn h4 p q, block_eq_chunk x e X E hX hE n hn p q, h4, upto_zero]

include hX hE h0 hs in
/-- After step `n` the accumulator holds the running total of the first `n % 4 + 1` contraction blocks: by induction
    on `n`, a step with `n % 4 ≠ 0` having the row block and column block of the step before it. -/
theorem acc_term : ∀ n (hn : n < 128) (p q : Fin 1024),
    A n p q = upto (term x e ⟨1024 * (n / 16) + p.val, row_lt n hn p⟩ ⟨1024 * (n / 4 % 4) + q.val, col_lt n q⟩) (n % 4 + 1) := by
  intro n
  induction n with
  | zero => exact fun hn p q => acc_reset x e A X E hX hE h0 0 hn (Nat.zero_mod 4) p q
  | succ m ih =>
    intro hn p q
    by_cases h4 : (m + 1) % 4 = 0
    · exact acc_reset x e A X E hX hE h0 (m + 1) hn h4 p q
    · have hm : m < 128 := by omega
      have hrow : (⟨1024 * (m / 16) + p.val, row_lt m hm p⟩ : Fin 8192) = ⟨1024 * ((m + 1) / 16) + p.val, row_lt (m + 1) hn p⟩ :=
        Fin.ext (by show 1024 * (m / 16) + p.val = 1024 * ((m + 1) / 16) + p.val; omega)
      have hcol : (⟨1024 * (m / 4 % 4) + q.val, col_lt m q⟩ : Fin 4096) = ⟨1024 * ((m + 1) / 4 % 4) + q.val, col_lt (m + 1) q⟩ :=
        Fin.ext (by show 1024 * (m / 4 % 4) + q.val = 1024 * ((m + 1) / 4 % 4) + q.val; omega)
      have hidx : m % 4 + 1 = (m + 1) % 4 := by omega
      have hprev := ih hm p q
      rw [hrow, hcol, hidx] at hprev
      rw [upto_succ, hs (m + 1) hn h4 p q, Nat.add_sub_cancel, hprev, block_eq_chunk x e X E hX hE (m + 1) hn p q]

include hX hE h0 hs in
/-- After step `n` the accumulator at `(p, q)` is the running total, over the first `n % 4 + 1` blocks of 1024
    contraction indices, of the products of row `1024 * (n / 16) + p` of `x` with row `1024 * (n / 4 % 4) + q` of `e`. -/
theorem acc_closed : ∀ n (hn : n < 128) (p q : Fin 1024),
    A n p q = upto (fun k : Fin 4096 => x ⟨1024 * (n / 16) + p.val, row_lt n hn p⟩ k
                      * e ⟨1024 * (n / 4 % 4) + q.val, col_lt n q⟩ k) (n % 4 + 1) :=
  acc_term x e A X E hX hE h0 hs

include hX hE h0 hs in
/-- After the fourth contraction block the accumulator at `(p, q)` is the whole sum over the 4096 contraction indices. -/
theorem acc_last : ∀ n (hn : n < 128), n % 4 = 3 → ∀ p q : Fin 1024,
    A n p q = ∑ k : Fin 4096, x ⟨1024 * (n / 16) + p.val, row_lt n hn p⟩ k * e ⟨1024 * (n / 4 % 4) + q.val, col_lt n q⟩ k := by
  intro n hn h3 p q
  rw [acc_closed x e A X E hX hE h0 hs n hn p q, h3]
  exact upto_four _

end

end Cert.BlockDiag
-- ==== Proof.Blocks1.lean ====
/-
  Where the blocks of the second kernel region sit in their arrays.

  The region's grid has 8 x 4 x 4 = 128 points; point number t has row block t / 16, column block t / 4 % 4 and
  contraction block t % 4 (the contraction block moves fastest). Every block is 1024 x 1024.
  The left input (8192 x 4096) is read at block (t / 16, t % 4): element (p, k) of the block is the array's element
  (1024 * (t / 16) + p, 1024 * (t % 4) + k). The right input, the effective weight (4096 x 4096), is read at block
  (t / 4 % 4, t % 4): element (q, k) of the block is the array's element (1024 * (t / 4 % 4) + q, 1024 * (t % 4) + k).
  The output (8192 x 4096) has block (t / 16, t / 4 % 4) and is written back exactly at the points with t % 4 = 3.
  The written blocks tile the output: the element at row r and column s lies in the block of the point
  16 * (r / 1024) + 4 * (s / 1024) + 3.
-/
import proofs.«161708_j76613626626441_1_alg».proof.Proof.KI.Runs
import proofs.«161708_j76613626626441_1_alg».proof.Proof.AccMath
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm Idealize.ShloMosaic Idealize.ShloMosaic.TcCoe Idealize.ShloMosaic.ValueIdx
open Idealize.ShloMosaic.Pipeline (Dat)
open Cert.BlockDiag (row_lt col_lt blk_lt)

variable (V : (c : Dev nD) → (b : Ref sig .tc) → Buf (Elt Ideal) ((c : Thread nD τ).loc b)) (c : Dev nD)

/-- A point's number is below 128. -/
theorem pt_lt (t : Fin cfg1.N) : t.val < 128 := lt_of_lt_of_eq t.isLt N_1

/-- The three windows' block indices at point `t`, decided over the grid. -/
theorem idx_facts1 : ∀ t : Fin cfg1.N, win1_0.index t (0 : Fin 2) = t.val / 16
    ∧ win1_0.index t (1 : Fin 2) = t.val % 4
    ∧ win1_1.index t (0 : Fin 2) = t.val / 4 % 4
    ∧ win1_1.index t (1 : Fin 2) = t.val % 4
    ∧ win1_2.index t (0 : Fin 2) = t.val / 16
    ∧ win1_2.index t (1 : Fin 2) = t.val / 4 % 4 :=
  (by decide +kernel : ∀ t : Fin grid1.N, _)

/-- The left input's block at point `t`, element `(p, k)`: the array at row `1024 * (t / 16) + p` and column
    `1024 * (t % 4) + k`. -/
theorem iblk1_0_apply (t : Fin cfg1.N) (p k : Fin 1024) :
    iblk1 V c 0 t (ix2 p k)
      = (V c main_arg0 : S8192x4096.Idx → EReal) (ix2 ⟨1024 * (t.val / 16) + p.val, row_lt t.val (pt_lt t) p⟩ ⟨1024 * (t.val % 4) + k.val, blk_lt t.val k⟩) := by
  obtain ⟨e0, e1, e2, e3, e4, e5⟩ := idx_facts1 t
  show (V c main_arg0 : S8192x4096.Idx → EReal) (((cfg1.win 0).blk t).view.emb (ix2 p k)) = _
  refine congrArg (V c main_arg0 : S8192x4096.Idx → EReal) ?_
  funext a; apply Fin.ext
  match a with
  | ⟨0, _⟩ => show win1_0.index t (0 : Fin 2) * 1024 + 1 * p.val = 1024 * (t.val / 16) + p.val; omega
  | ⟨1, _⟩ => show win1_0.index t (1 : Fin 2) * 1024 + 1 * k.val = 1024 * (t.val % 4) + k.val; omega

/-- The right input's block at point `t`, element `(q, k)`: the array at row `1024 * (t / 4 % 4) + q` and column
    `1024 * (t % 4) + k`. -/
theorem iblk1_1_apply (t : Fin cfg1.N) (q k : Fin 1024) :
    iblk1 V c 1 t (ix2 q k)
      = (V c main_v1 : S4096x4096.Idx → EReal) (ix2 ⟨1024 * (t.val / 4 % 4) + q.val, col_lt t.val q⟩ ⟨1024 * (t.val % 4) + k.val, blk_lt t.val k⟩) := by
  obtain ⟨e0, e1, e2, e3, e4, e5⟩ := idx_facts1 t
  show (V c main_v1 : S4096x4096.Idx → EReal) (((cfg1.win 1).blk t).view.emb (ix2 q k)) = _
  refine congrArg (V c main_v1 : S4096x4096.Idx → EReal) ?_
  funext a; apply Fin.ext
  match a with
  | ⟨0, _⟩ => show win1_1.index t (0 : Fin 2) * 1024 + 1 * q.val = 1024 * (t.val / 4 % 4) + q.val; omega
  | ⟨1, _⟩ => show win1_1.index t (1 : Fin 2) * 1024 + 1 * k.val = 1024 * (t.val % 4) + k.val; omega

/-- The output's block at point `t`, element `(p, q)`, sits in the array at row `1024 * (t / 16) + p` and column
    `1024 * (t / 4 % 4) + q`. -/
theorem emb1_2 (t : Fin cfg1.N) (p q : Fin 1024) :
    (((cfg1.win 2).blk t).view.emb (ix2 p q) : S8192x4096.Idx)
      = ix2 ⟨1024 * (t.val / 16) + p.val, row_lt t.val (pt_lt t) p⟩ ⟨1024 * (t.val / 4 % 4) + q.val, col_lt t.val q⟩ := by
  obtain ⟨e0, e1, e2, e3, e4, e5⟩ := idx_facts1 t
  funext a; apply Fin.ext
  match a with
  | ⟨0, _⟩ => show win1_2.index t (0 : Fin 2) * 1024 + 1 * p.val = 1024 * (t.val / 16) + p.val; omega
  | ⟨1, _⟩ => show win1_2.index t (1 : Fin 2) * 1024 + 1 * q.val = 1024 * (t.val / 4 % 4) + q.val; omega

/-- An index of the output array is in point `t`'s block iff each coordinate is in the block's range on its axis. -/
theorem mem_blk1_2 (t : Fin cfg1.N) (i : S8192x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v2).slice (win1_2.rect t)).set ↔ _
  rw [View.set_slice_whole, Rect.mem_set_unit]
  exact Iff.rfl

/-- Every index of the output array lies in a block that is written back: row `r`, column `s` in the block of the
    point `16 * (r / 1024) + 4 * (s / 1024) + 3`. -/
theorem cover1_2 (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  have hN : grid1.N = 128 := N_1
  obtain ⟨t, ht⟩ : ∃ t : Fin cfg1.N, t.val = 16 * ((i 0).val / 1024) + 4 * ((i 1).val / 1024) + 3 :=
    ⟨⟨16 * ((i 0).val / 1024) + 4 * ((i 1).val / 1024) + 3, by show _ < grid1.N; omega⟩, rfl⟩
  obtain ⟨e0, e1, e2, e3, e4, e5⟩ := idx_facts1 t
  refine ⟨t, (flush1_2 t).mpr (by omega), ?_⟩
  rw [mem_blk1_2]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

end Cert.KernelIdeal.Val

end
-- ==== Proof.Val1.lean ====
/-
  The value region 1 leaves in its output array, at the exact extended reals.

  Fix the contents of the core's buffers when region 1 is entered: an input array x of 8192 x 4096 numbers and an
  effective-weight array e of 4096 x 4096 numbers. The grid has 128 points; point number n has row block n / 16,
  column block n / 4 mod 4 and contraction block n mod 4. By the body's arithmetic the accumulator after point n is,
  at (p, q): zero plus the block product when n mod 4 = 0, and the accumulator after point n - 1 plus the block product
  otherwise, the block product being the sum over k < 1024 of x(1024 (n / 16) + p, 1024 (n mod 4) + k) times
  e(1024 (n / 4 mod 4) + q, 1024 (n mod 4) + k). Hence at the points with n mod 4 = 3 the accumulator, and the output block
  copied from it, hold the full sum over all 4096 columns; these are exactly the points whose output block is written
  back, and their blocks tile the output array. So the output array ends as

      out (b, o) = sum over k < 4096 of x (b, k) * e (o, k).

  Only the associativity and commutativity of addition on the extended reals is used to regroup the sum.
-/
import proofs.«161708_j76613626626441_1_alg».proof.Proof.KI.Pieces
import proofs.«161708_j76613626626441_1_alg».proof.Proof.Payloads
import proofs.«161708_j76613626626441_1_alg».proof.Proof.AccMath
import proofs.«161708_j76613626626441_1_alg».proof.Proof.Blocks1
import Idealize.ShloMosaic.Lib.Pipeline.Value

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- The input array as a function of row and column. -/
def xin : Fin 8192 → Fin 4096 → EReal := fun r k => V c main_arg0 (ix2 r k)
/-- The effective-weight array as a function of row and column. -/
def ein : Fin 4096 → Fin 4096 → EReal := fun o k => V c main_v1 (ix2 o k)

/-- The accumulator after point `n`, at row `p` and column `q` (zero past the grid). -/
def accA (n : ℕ) (p q : Fin 1024) : EReal := if hn : n < cfg1.N then (outsAt1 V c n hn).2 (ix2 p q) else 0
/-- The input's block at point `n`. -/
def blkX (n : ℕ) (p k : Fin 1024) : EReal := if hn : n < cfg1.N then iblk1 V c 0 ⟨n, hn⟩ (ix2 p k) else 0
/-- The effective weight's block at point `n`. -/
def blkE (n : ℕ) (q k : Fin 1024) : EReal := if hn : n < cfg1.N then iblk1 V c 1 ⟨n, hn⟩ (ix2 q k) else 0

theorem lt_N {n : ℕ} (hn : n < 128) : n < cfg1.N := lt_of_lt_of_eq hn (show cfg1.N = 128 from N_1).symm

/-- At a point that clears the accumulator it ends at zero plus the block product. -/
theorem acc_reset_step (n : ℕ) (hn : n < 128) (h0 : n % 4 = 0) (p q : Fin 1024) :
    accA V c n p q = 0 + ∑ k : Fin 1024, blkX V c n p k * blkE V c n q k := by
  have hn' : n < cfg1.N := lt_N hn
  have h1 : ¬ n % 4 = 3 := by omega
  unfold accA blkX blkE
  simp only [dif_pos hn']
  have e : (outsAt1 V c n hn').2 = _ := congrArg Prod.snd (outsAt1_A V c ⟨n, hn'⟩ h0 h1)
  rw [e]
  dsimp only
  rw [sout1_A_0_eq]
  refine (Pay.pay_acc (iblk1 V c 0 ⟨n, hn'⟩) (iblk1 V c 1 ⟨n, hn'⟩) _ p q).trans ?_
  rw [Pay.pay_zero]

/-- At any other point it ends at what the point before left plus the block product. -/
theorem acc_add_step (n : ℕ) (hn : n < 128) (h0 : n % 4 ≠ 0) (p q : Fin 1024) :
    accA V c n p q = accA V c (n - 1) p q + ∑ k : Fin 1024, blkX V c n p k * blkE V c n q k := by
  have hn' : n < cfg1.N := lt_N hn
  have hp' : n - 1 < cfg1.N := lt_of_le_of_lt (Nat.sub_le _ _) hn'
  unfold accA blkX blkE
  simp only [dif_pos hn', dif_pos hp']
  by_cases h1 : n % 4 = 3
  · have e : (outsAt1 V c n hn').2 = _ := congrArg Prod.snd (outsAt1_C V c ⟨n, hn'⟩ h0 h1)
    rw [e]
    dsimp only
    rw [sout1_C_0_eq]
    exact Pay.pay_acc (iblk1 V c 0 ⟨n, hn'⟩) (iblk1 V c 1 ⟨n, hn'⟩) _ p q
  · have e : (outsAt1 V c n hn').2 = _ := congrArg Prod.snd (outsAt1_B V c ⟨n, hn'⟩ h0 h1)
    rw [e]
    dsimp only
    rw [sout1_B_0_eq]
    exact Pay.pay_acc (iblk1 V c 0 ⟨n, hn'⟩) (iblk1 V c 1 ⟨n, hn'⟩) _ p q

/-- The input's block at point `n` is the input array at the block's rows and columns. -/
theorem blkX_eq (n : ℕ) (hn : n < 128) (p k : Fin 1024) :
    blkX V c n p k = xin V c ⟨1024 * (n / 16) + p.val, Cert.BlockDiag.row_lt n hn p⟩ ⟨1024 * (n % 4) + k.val, Cert.BlockDiag.blk_lt n k⟩ := by
  unfold blkX xin
  rw [dif_pos (lt_N hn)]
  exact iblk1_0_apply V c ⟨n, lt_N hn⟩ p k

/-- The effective weight's block at point `n` is the effective-weight array at the block's rows and columns. -/
theorem blkE_eq (n : ℕ) (hn : n < 128) (q k : Fin 1024) :
    blkE V c n q k = ein V c ⟨1024 * (n / 4 % 4) + q.val, Cert.BlockDiag.col_lt n q⟩ ⟨1024 * (n % 4) + k.val, Cert.BlockDiag.blk_lt n k⟩ := by
  unfold blkE ein
  rw [dif_pos (lt_N hn)]
  exact iblk1_1_apply V c ⟨n, lt_N hn⟩ q k

/-- At a point whose contraction block is the last, the accumulator holds the full sum over all 4096 columns. -/
theorem acc_full (n : ℕ) (hn : n < 128) (h3 : n % 4 = 3) (p q : Fin 1024) :
    accA V c n p q = ∑ k : Fin 4096, xin V c ⟨1024 * (n / 16) + p.val, Cert.BlockDiag.row_lt n hn p⟩ k * ein V c ⟨1024 * (n / 4 % 4) + q.val, Cert.BlockDiag.col_lt n q⟩ k :=
  Cert.BlockDiag.acc_last (xin V c) (ein V c) (accA V c) (blkX V c) (blkE V c) (blkX_eq V c) (blkE_eq V c)
    (fun n hn h0 p q => acc_reset_step V c n hn h0 p q) (fun n hn h0 p q => acc_add_step V c n hn h0 p q) n hn h3 p q

/-- The result array as one function of the input and the effective weight. -/
def outG : S8192x4096.Idx → EReal := fun i => ∑ k : Fin 4096, xin V c (i 0) k * ein V c (i 1) k

/-- What a point whose output block is written back writes: that block of `outG`. -/
theorem flushed1_2 (t : Fin cfg1.N) (hf : (cfg1.win 2).flush t = true) :
    (dat1 V c).flushed 2 t = ((cfg1.win 2).blk t).view.read (Elt Ideal) (outG V c) := by
  have h3 : t.val % 4 = 3 := (flush1_2 t).mp hf
  have h0 : ¬ t.val % 4 = 0 := by omega
  have hn : t.val < 128 := lt_of_lt_of_eq t.isLt (show cfg1.N = 128 from N_1)
  show (cfg1.win 2).cut (grid1.coords t) ((dat1 V c).after 2 t) = _
  rw [after1_2]
  have e1 : (outsAt1 V c t.val t.isLt).1 = (outsAt1 V c t.val t.isLt).2 := by
    rw [outsAt1_C V c t h0 h3]; dsimp only; rw [out1_C_2_eq, sout1_C_0_eq]
  rw [e1]
  funext y
  obtain ⟨p, q, rfl⟩ : ∃ (p q : Fin 1024), y = ix2 p q := ⟨y 0, y 1, eq_ix2 y⟩
  show (outsAt1 V c t.val t.isLt).2 (ix2 p q) = outG V c (((cfg1.win 2).blk t).view.emb (ix2 p q))
  rw [emb1_2 t p q]
  have ea : (outsAt1 V c t.val t.isLt).2 (ix2 p q) = accA V c t.val p q := by
    unfold accA; rw [dif_pos t.isLt]
  rw [ea, acc_full V c t.val hn h3 p q]
  rfl

/-- The output array after region 1. -/
theorem out_final : (dat1 V c).arrAt 2 cfg1.N = outG V c :=
  (dat1 V c).arrAt_eq_of_cover 2 (outG V c) (fun t hf => flushed1_2 V c t hf) (fun i => cover1_2 i)

end Cert.KernelIdeal.Val

end
-- ==== Proof.Spec.lean ====
/-
  The mathematical content of the block-diagonal linear layer, stated once over whole arrays.

  For an input matrix `x` of 8192 rows and 4096 columns, a square weight matrix `W` of side 4096 and a
  one-bit mask `mk` of the same shape, the effective weight is the hyperbolic tangent of the entrywise
  product of `W` with the mask read as a number,

      eff (o, k) = tanh (W (o, k) · mk (o, k)),

  and the result is the product of `x` with the transpose of the effective weight:

      G (b, o) = ∑ₖ x (b, k) · eff (o, k),      k ranging over all 4096 columns.

  Everything is over the extended reals; no finiteness is assumed, since only the commutative monoid laws of
  addition are used to compare different groupings of this sum.
-/
import Idealize.ShloMosaic.PureOps.Ideal
import Idealize.ShloMosaic.Lib.ValueIdx

noncomputable section

namespace Cert.BlockDiag

open Idealize.ShloMosaic Idealize.ShloMosaic.ValueIdx

/-- The shape of the input and of the result: 8192 rows of 4096 entries. -/
abbrev SX : Shape := ⟨2, ![8192, 4096]⟩
/-- The shape of the weight and of the mask: 4096 rows of 4096 entries. -/
abbrev SW : Shape := ⟨2, ![4096, 4096]⟩

/-- Entry `(o, k)` of the effective weight: the hyperbolic tangent of the weight times the mask bit read as a number. -/
def eff (W : FVec Ideal SW .f32) (mk : IVec SW 1) (o k : Fin 4096) : EReal :=
  Ideal.tanh (W (ix2 o k) * FloatOps.uitofp (F := Ideal) .f32 (mk (ix2 o k)))

/-- One term of the contraction: the input at `(b, k)` times the effective weight at `(o, k)`. -/
def summand (x : FVec Ideal SX .f32) (W : FVec Ideal SW .f32) (mk : IVec SW 1) (b : Fin 8192) (o k : Fin 4096) : EReal :=
  x (ix2 b k) * eff W mk o k

/-- Entry `(b, o)` of the result: the sum over all 4096 columns `k` of `x (b, k) · eff (o, k)`. -/
def entry (x : FVec Ideal SX .f32) (W : FVec Ideal SW .f32) (mk : IVec SW 1) (b : Fin 8192) (o : Fin 4096) : EReal :=
  ∑ k : Fin 4096, summand x W mk b o k

/-- The whole result array. -/
def G (x : FVec Ideal SX .f32) (W : FVec Ideal SW .f32) (mk : IVec SW 1) : FVec Ideal SX .f32 :=
  fun i => entry x W mk (i 0) (i 1)

theorem G_apply (x : FVec Ideal SX .f32) (W : FVec Ideal SW .f32) (mk : IVec SW 1) (b : Fin 8192) (o : Fin 4096) :
    G x W mk (ix2 b o) = entry x W mk b o := rfl

end Cert.BlockDiag

end
-- ==== Proof.Bridge.lean ====
/-
  The kernel program's result is the specification's.

  After the program's run the result array is what region 1 leaves: at (b, o) the sum over all 4096 columns k of the
  input at (b, k) times the effective weight at (o, k), the two arrays being those region 1 was entered with. The input
  is the program's first argument, untouched by everything before. The effective weight is what region 0 leaves: at
  every index the hyperbolic tangent of the weight (the second argument) times the mask converted to a number (the host
  operation before the regions applied to the third argument). Substituting gives the specification `G` entry by entry.
-/
import proofs.«161708_j76613626626441_1_alg».proof.Proof.KI.Run
import proofs.«161708_j76613626626441_1_alg».proof.Proof.Val0
import proofs.«161708_j76613626626441_1_alg».proof.Proof.Val1
import proofs.«161708_j76613626626441_1_alg».proof.Proof.Spec

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg)

/-- The result array after the run, as the specification of the three argument arrays. -/
theorem kernel_value (c : Dev nD) :
    (dat1 (V2 m ρ) c).arrAt 2 cfg1.N
      = Cert.BlockDiag.G (m ((c : Thread nD τ).loc main_arg0)) (m ((c : Thread nD τ).loc main_arg1)) (m ((c : Thread nD τ).loc main_arg2)) := by
  rw [out_final (V2 m ρ) c]
  funext i
  unfold outG xin ein
  rw [V2_main_arg0 m ρ c, V2_main_v1 m ρ c, eff_final (V1 m ρ) c]
  unfold wgt msk
  rw [V1_main_arg1 m ρ c, V1_main_v0 m ρ c]
  rfl

end Cert.KernelIdeal.Val

end
-- ==== Proof.RefValue.lean ====
/-
  The reference computation, read as one sum per entry.

  The reference turns the one-bit mask into a number, multiplies the weight by it entrywise, takes the hyperbolic
  tangent, and contracts the input's columns against the result's columns in one step. Entry `(b, o)` of that
  contraction is the sum over all 4096 columns `k` of `x (b, k) · tanh (W (o, k) · mk (o, k))`, which is the
  array `G` of the specification, entry by entry and term by term.
-/
import proofs.«161708_j76613626626441_1_alg».proof.Proof.Gen.ReferenceIdeal.Read
import proofs.«161708_j76613626626441_1_alg».proof.Proof.Spec

noncomputable section

namespace Cert.ReferenceIdeal.RefValue

open Cert.ReferenceIdeal Cert.ReferenceIdeal.Gen Idealize.ShloMosaic Idealize.ShloMosaic.ValueIdx

/-- The reference's result is the specified array: each entry `(b, o)` is the sum over the columns `k` of the
    input at `(b, k)` times the hyperbolic tangent of the masked weight at `(o, k)`. -/
theorem ref_eq (x : (⟨S8192x4096, .f32⟩ : BufTy).Contents (Elt Ideal))
    (W : (⟨S4096x4096, .f32⟩ : BufTy).Contents (Elt Ideal))
    (mk : (⟨S4096x4096, .i1⟩ : BufTy).Contents (Elt Ideal)) :
    Host.dotGeneral (F := Ideal) (φ₁ := .f32) dot_S8192x4096_S4096x4096_S8192x4096_1_1_0_0_n_n none x
        (Host.tanh (mulf W (uitofp .f32 mk))) = Cert.BlockDiag.G x W mk := by
  rw [Read.val_main_v3_eq]
  funext i
  obtain ⟨b, o, rfl⟩ : ∃ (b : Fin 8192) (o : Fin 4096), i = ix2 b o := ⟨i 0, i 1, eq_ix2 i⟩
  rw [Read.val_main_v3_apply, Cert.BlockDiag.G_apply]
  unfold Cert.BlockDiag.entry
  refine Finset.sum_congr rfl fun k _ => ?_
  have el : Read.lidx_main_v3 (ix2 b o) k = ix2 b k := funext fun a => Fin.ext (by
    match a with
    | ⟨0, _⟩ => rfl
    | ⟨1, _⟩ => rfl)
  have er : Read.ridx_main_v3 (ix2 b o) k = ix2 o k := funext fun a => Fin.ext (by
    match a with
    | ⟨0, _⟩ => rfl
    | ⟨1, _⟩ => rfl)
  rw [el, er, Read.val_main_v2_apply, Read.val_main_v1_apply, Read.val_main_v0_apply,
    Ideal.hostUnary_tanh_def, Ideal.mulf_def]
  rfl

end Cert.ReferenceIdeal.RefValue

end
-- ==== Proof.lean ====
/-
  The certificate's five claims for the block-diagonal linear layer
      out = x · tanh (W ∘ mask)ᵀ.

  The kernel program runs a host conversion of the mask to numbers and then two kernel regions: the first writes the
  effective weight tanh (W ∘ mask) sixteen row blocks at a time; the second is a blocked matrix product whose
  1024 x 1024 accumulator is kept between grid points, cleared at the first of every four contraction steps and copied
  into the output block at the last. The reference is a host product of x with the transpose of the same effective
  weight. Both programs terminate, fault nowhere and leave their arguments unchanged (the three frame claims: the
  kernel program's at the word level and at the exact extended reals by the same argument, the reference's from its
  run). The idealized kernel program is the kernel program's own text read at the extended reals (nothing was
  rewritten, so there is nothing to preserve). And at the extended reals both results are, entry by entry,

      out (b, o) = sum over k < 4096 of x (b, k) · tanh (W (o, k) · mask (o, k)),

  the kernel's sum being grouped in four chunks of 1024 columns: only the associativity and commutativity of addition
  on the extended reals is used, so no finiteness of the inputs is needed.
-/
import proofs.«161708_j76613626626441_1_alg».proof.Defs
import proofs.«161708_j76613626626441_1_alg».proof.Proof.Gen.Kernel
import proofs.«161708_j76613626626441_1_alg».proof.Proof.Gen.KernelIdeal
import proofs.«161708_j76613626626441_1_alg».proof.Proof.Gen.ReferenceIdeal
import proofs.«161708_j76613626626441_1_alg».proof.Proof.Gen.Pre_finite_inputs
import proofs.«161708_j76613626626441_1_alg».proof.Proof.Gen.ReferenceIdeal.Run
import proofs.«161708_j76613626626441_1_alg».proof.Proof.K.Run
import proofs.«161708_j76613626626441_1_alg».proof.Proof.KI.Run
import proofs.«161708_j76613626626441_1_alg».proof.Proof.Bridge
import proofs.«161708_j76613626626441_1_alg».proof.Proof.RefValue
import Idealize.ShloMosaic.Adequacy
import Idealize.ShloMosaic.Init

noncomputable section

namespace Cert.Proof

open Idealize.ShloMosaic Idealize.ShloMosaic.TcCoe Idealize.SL.Sem

/-- The kernel program, word by word: it runs to the end and leaves its arguments unchanged. -/
theorem frame_kernel : Cert.frame_Kernel := fun m ρ _ => Cert.Kernel.Frm.frame m ρ

/-- The same at the exact extended reals. -/
theorem frame_kernel_ideal : Cert.frame_KernelIdeal := fun m ρ _ => Cert.KernelIdeal.Frm.frame m ρ

/-- The reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel program was rewritten for the exact reading. -/
theorem preserves : Cert.preserves_Kernel_KernelIdeal := trivial

/-- At the extended reals the kernel program's result and the reference's are the same function of arguments that agree. -/
theorem algebraic : Cert.algebraic_KernelIdeal_ReferenceIdeal := by
  intro m ρ m' ρ' _ hagree
  refine ⟨fun c => Cert.BlockDiag.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Val.kernel_value m ρ c), (h c).2⟩)
      (Cert.KernelIdeal.Frm.run_main m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2]
    exact Cert.ReferenceIdeal.RefValue.ref_eq _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
